-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x64x1024 : Shape := ⟨3, ![4, 64, 1024]⟩
abbrev S4x1024x1024 : Shape := ⟨3, ![4, 1024, 1024]⟩
abbrev S4x1x1024 : Shape := ⟨3, ![4, 1, 1024]⟩
abbrev S1x256x64 : Shape := ⟨3, ![1, 256, 64]⟩
abbrev S1x64x1024 : Shape := ⟨3, ![1, 64, 1024]⟩
abbrev S1x256x1024 : Shape := ⟨3, ![1, 256, 1024]⟩
abbrev S1x1x256 : Shape := ⟨3, ![1, 1, 256]⟩
abbrev S256x1024 : Shape := ⟨2, ![256, 1024]⟩
abbrev S256x64 : Shape := ⟨2, ![256, 64]⟩
abbrev S256x64x1 : Shape := ⟨3, ![256, 64, 1]⟩
abbrev S1x64x128 : Shape := ⟨3, ![1, 64, 128]⟩
abbrev S64x128 : Shape := ⟨2, ![64, 128]⟩
abbrev S256x64x128 : Shape := ⟨3, ![256, 64, 128]⟩
abbrev S256x128 : Shape := ⟨2, ![256, 128]⟩
abbrev S256 : Shape := ⟨1, ![256]⟩
abbrev S256x1 : Shape := ⟨2, ![256, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x64x1024, .f32⟩
  | .hbm, ⟨3, _⟩ => ⟨S4x1024x1024, .f32⟩
  | .hbm, ⟨4, _⟩ => ⟨S4x1x1024, .f32⟩
  | .local _ .vmem, ⟨0, _⟩ => ⟨S1x256x64, .f32⟩
  | .local _ .vmem, ⟨1, _⟩ => ⟨S1x256x64, .f32⟩
  | .local _ .vmem, ⟨2, _⟩ => ⟨S1x64x1024, .f32⟩
  | .local _ .vmem, ⟨3, _⟩ => ⟨S1x64x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x256, .f32⟩
  | .local _ .vmem, ⟨7, _⟩ => ⟨S1x1x256, .f32⟩
  | .local _ .vmem, ⟨8, _⟩ => ⟨S256x1024, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v21 : BitVec 32 := Scalar.muli arg7 c128_i32
  v21
def k0_off1 (k0_t1 : Fin k0_t1_loop.trips) : Fin 3 → Nat :=
  let c0_12 : Index := 0#32
  let c0_13 : Index := 0#32
  let c0_i32 : BitVec 32 := 0#32
  let c1_i32 : BitVec 32 := 1#32
  let arg7 : BitVec 32 := Scf.iv c0_i32 c1_i32 k0_t1
  let c128_i32 : BitVec 32 := 128#32
  let v21 : BitVec 32 := Scalar.muli arg7 c128_i32
  let v22 : BitVec 32 := v21
  let v23 : Index := Scalar.indexCast v22
  ![0, 0, v23.toNat]
def k0_off2 (k0_t1 : Fin k0_t1_loop.trips) : Fin 2 → Nat :=
  let c0_17 : Index := 0#32
  let c0_i32 : BitVec 32 := 0#32
  let c1_i32 : BitVec 32 := 1#32
  let arg7 : BitVec 32 := Scf.iv c0_i32 c1_i32 k0_t1
  let c128_i32 : BitVec 32 := 128#32
  let v21 : BitVec 32 := Scalar.muli arg7 c128_i32
  let v22 : BitVec 32 := v21
  let v36 : Index := Scalar.indexCast v22
  ![0, v36.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x1024x64_S4x64x1024_0_2_1 : S4x1024x64.Transposes [0, 2, 1] S4x64x1024
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S256x64x1 : S256x64.ShapeCasts S256x64x1
  h_S1x64x128 : 0 < S1x64x128.numel
  shapeCasts_S1x64x128_S64x128 : S1x64x128.ShapeCasts S64x128
  shapeCasts_S64x128_S1x64x128 : S64x128.ShapeCasts S1x64x128
  broadcasts_S256x64x1_S256x64x128 : S256x64x1.Broadcasts S256x64x128
  broadcasts_S1x64x128_S256x64x128 : S1x64x128.Broadcasts S256x64x128
  reduces_S256x64x128_S256x128 : S256x64x128.Reduces [1] S256x128
  h_S256x128 : 0 < S256x128.numel
  shapeCasts_S256x128_S256x128 : S256x128.ShapeCasts S256x128
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x64x128.size a ≤ S1x64x1024.size a
  k0_off2_inb : ∀ k0_t1 : Fin k0_t1_loop.trips, ∀ a, (k0_off2 k0_t1) a + S256x128.size a ≤ S256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x1024x64.size a
  hwx0_0 : ∀ i : grid0.Coords, EltTy.bits .f32 = 32 ∨ (Rect.block (s := S4x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x1024.size a
  hwx0_1 : ∀ i : grid0.Coords, EltTy.bits .f32 = 32 ∨ (Rect.block (s := S4x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x1024x1024.size a
  hwx0_2 : ∀ i : grid0.Coords, EltTy.bits .f32 = 32 ∨ (Rect.block (s := S4x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S4x1x1024.size a
  hwx0_3 : ∀ i : grid0.Coords, EltTy.bits .f32 = 32 ∨ (Rect.block (s := S4x1x1024) S1x1x256.size (cc0_transform_3 i) (hinb0_3 i)).WholeWords (EltTy.packing .f32)

variable [Facts₀]

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1x1024x64 : Shape := ⟨4, ![4, 1, 1024, 64]⟩
abbrev S4x1024x1x64 : Shape := ⟨4, ![4, 1024, 1, 64]⟩
abbrev S4x1024x1024x64 : Shape := ⟨4, ![4, 1024, 1024, 64]⟩
abbrev S_ : Shape := ⟨0, ![]⟩
abbrev S4x1024x1024 : Shape := ⟨3, ![4, 1024, 1024]⟩
abbrev S4x1024 : Shape := ⟨2, ![4, 1024]⟩
abbrev S4x1x1024 : Shape := ⟨3, ![4, 1, 1024]⟩
abbrev S4x1024x1 : Shape := ⟨3, ![4, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1x1024x64, .f32⟩
  | .hbm, ⟨3, _⟩ => ⟨S4x1024x1x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | .hbm, ⟨10, _⟩ => ⟨S_, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024, .f32⟩
  | .hbm, ⟨17, _⟩ => ⟨S4x1x1024, .f32⟩
  | .hbm, ⟨18, _⟩ => ⟨S_, .f32⟩
  | .hbm, ⟨19, _⟩ => ⟨S4x1024, .f32⟩
  | .hbm, ⟨20, _⟩ => ⟨S_, .f32⟩
  | .hbm, ⟨21, _⟩ => ⟨S4x1024, .f32⟩
  | .hbm, ⟨22, _⟩ => ⟨S4x1024, .f32⟩
  | .hbm, ⟨23, _⟩ => ⟨S4x1024x1, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024, .f32⟩
  | .hbm, ⟨29, _⟩ => ⟨S4x1024x1, .f32⟩
  | .hbm, ⟨30, _⟩ => ⟨S4x1024x1024, .f32⟩
  | .hbm, ⟨31, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S4x1024x64_S4x1x1024x64_0_2_3 : S4x1024x64.BroadcastsInDim S4x1x1024x64 (![0, 2, 3] : Fin 3 → Fin S4x1x1024x64.rank)
  bcast_S4x1024x64_S4x1024x1x64_0_1_3 : S4x1024x64.BroadcastsInDim S4x1024x1x64 (![0, 1, 3] : Fin 3 → Fin S4x1024x1x64.rank)
  bcast_S4x1x1024x64_S4x1024x1024x64_0_1_2_3 : S4x1x1024x64.BroadcastsInDim S4x1024x1024x64 (![0, 1, 2, 3] : Fin 4 → Fin S4x1024x1024x64.rank)
  bcast_S4x1024x1x64_S4x1024x1024x64_0_1_2_3 : S4x1024x1x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel
  bcast_S_S4x1024x1024 : S_.BroadcastsInDim S4x1024x1024 (![] : Fin 0 → Fin S4x1024x1024.rank)
  transposes_S4x1024x1024_S4x1024x1024_0_2_1 : S4x1024x1024.Transposes [0, 2, 1] S4x1024x1024
  reducesTo_S4x1024x1024_S4x1024_d2 : S4x1024x1024.ReducesTo [2] S4x1024
  bcast_S4x1024_S4x1x1024_0_2 : S4x1024.BroadcastsInDim S4x1x1024 (![0, 2] : Fin 2 → Fin S4x1x1024.rank)
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)

variable [Facts₀]

class Facts : Prop extends Facts₀ where

variable [Facts]
-- ==== Proof.Spec.lean ====
/-
  The specification: pairwise L1-distance attention over q, y : [4, 1024, 64].

  For a batch b, a query row i and a key row j the SCORE is minus the mean over the 64 features of
  |q[b,i,d] − y[b,j,d]|; the row MAXIMUM of the scores over j is the second result (laid out [4, 1, 1024]);
  the first result is the softmax of the scores over j, taken in the shifted form
  exp(s − max) / Σ_j exp(s − max).  Everything is over the extended reals, where the kernel's product
  with 1/64 and the reference's quotient by 64 are one function, and a maximum against −∞ is the identity.
-/
import Idealize.ShloMosaic.PureOps.Ideal
import Idealize.ShloMosaic.PureOps.Ideal.Laws
import Idealize.ShloMosaic.Lib.ValueIdx

noncomputable section

namespace Cert.L1Attn

open Idealize.ShloMosaic Idealize.ShloMosaic.ValueIdx

/-- The arguments' shape, and the two results'. -/
abbrev SQ : Shape := ⟨3, ![4, 1024, 64]⟩
abbrev SA : Shape := ⟨3, ![4, 1024, 1024]⟩
abbrev SM : Shape := ⟨3, ![4, 1, 1024]⟩

/-- |a − b| on the extended reals, as both programs compute it: the larger of the difference and its negative. -/
def adiff (a b : EReal) : EReal := max (a - b) (-(a - b))

/-- The L1 distance of query row (b, i) and key row (b, j): the sum over the 64 features. -/
def l1 (q y : SQ.Idx → EReal) (b : Fin 4) (i j : Fin 1024) : EReal :=
  ∑ d : Fin 64, adiff (q (ix3 b i d)) (y (ix3 b j d))

/-- The score: minus the mean distance. -/
def score (q y : SQ.Idx → EReal) (b : Fin 4) (i j : Fin 1024) : EReal :=
  -(l1 q y b i j * ((1 / 64 : ℝ) : EReal))

/-- The row maximum of the scores, from −∞. -/
def rowMax (q y : SQ.Idx → EReal) (b : Fin 4) (i : Fin 1024) : EReal :=
  (Finset.univ : Finset (Fin 1024)).fold max ⊥ (fun j => score q y b i j)

/-- The shifted exponential. -/
def expv (q y : SQ.Idx → EReal) (b : Fin 4) (i j : Fin 1024) : EReal :=
  Ideal.exp (score q y b i j - rowMax q y b i)

/-- The softmax weight. -/
def att (q y : SQ.Idx → EReal) (b : Fin 4) (i j : Fin 1024) : EReal :=
  Ideal.div (expv q y b i j) (∑ j' : Fin 1024, expv q y b i j')

/-- The first result, as one function of the argument arrays. -/
def G0 (q y : SQ.Idx → EReal) : SA.Idx → EReal := fun x => att q y (x 0) (x 1) (x 2)

/-- The second result: the row maxima, laid out [4, 1, 1024]. -/
def G1 (q y : SQ.Idx → EReal) : SM.Idx → EReal := fun x => rowMax q y (x 0) (x 2)

theorem G0_ix3 (q y : SQ.Idx → EReal) (b : Fin 4) (i j : Fin 1024) : G0 q y (ix3 b i j) = att q y b i j := rfl
theorem G1_ix3 (q y : SQ.Idx → EReal) (b : Fin 4) (u : Fin 1) (i : Fin 1024) : G1 q y (ix3 b u i) = rowMax q y b i := rfl

/-! ## Four f32 words -/

theorem ofBits_zero : Ideal.ofBits .f32 0x00000000#32 = 0 := Ideal.ofBits_zero_f32
theorem ofBits_ninf : Ideal.ofBits .f32 0xFF800000#32 = ⊥ := by simp [Ideal.ofBits, Ideal.ieee]
theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num

/-! ## The two spellings of the score -/

/-- The kernel's: zero minus the sum, times the word 1/64. -/
theorem score_kernel_form (S : EReal) :
    (Ideal.ofBits .f32 0x00000000#32 - S) * Ideal.ofBits .f32 0x3C800000#32 = -(S * ((1 / 64 : ℝ) : EReal)) := by
  rw [ofBits_zero, ofBits_inv64, zero_sub, EReal.neg_mul]

/-- The reference's: minus the quotient of zero plus the sum by the word 64. -/
theorem score_ref_form (S : EReal) :
    -(Ideal.div (Ideal.ofBits .f32 0x00000000#32 + S) (Ideal.ofBits .f32 0x42800000#32)) = -(S * ((1 / 64 : ℝ) : EReal)) := by
  rw [ofBits_zero, ofBits_64, zero_add, Ideal.div_coe (by norm_num : (64 : ℝ) ≠ 0)]

/-- A maximum taken from the word −∞ starts from the bottom. -/
theorem fold_max_ninf {ι : Type} (s : Finset ι) (f : ι → EReal) :
    s.fold max (Ideal.ofBits .f32 0xFF800000#32) f = s.fold max ⊥ f := by rw [ofBits_ninf]

end Cert.L1Attn

end
-- ==== Proof.RefValue.lean ====
/-
  The reference program's two results, read at an index, are the specification's two functions.

  The reference forms the array of absolute differences at [b, j, i, d] (key row j before query row i), sums it
  over d from the word 0, divides by the word 64, transposes to [b, i, j] and negates: that is the score.  The
  row maximum is the fold of max over j from the word −∞; a further maximum against −∞ changes nothing.  The
  shifted exponential, its row sum from the word 0 and the quotient are then the softmax weight.
-/
import proofs.«160099_j1580547972197_2_alg».proof.Proof.Gen.ReferenceIdeal.Read
import proofs.«160099_j1580547972197_2_alg».proof.Proof.Spec
import Idealize.ShloMosaic.Lib.ValueIdx
import Idealize.ShloMosaic.PureOps.Ideal
import Idealize.ShloMosaic.PureOps.Ideal.Laws
import Idealize.ShloMosaic.PureOps.Reduce

noncomputable section

namespace Cert.L1Attn.Ref

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The layout operations' source indices, by coordinates -/

/-- Element (b, j, i, d) of the broadcast first argument is its element (b, i, d). -/
theorem idx_v0v2 (b : Fin 4) (j i : Fin 1024) (d : Fin 64) :
    idx_main_v0 (idx_main_v2 (ix4 b j i d)) = ix3 b i d := by
  funext a; match a with | ⟨0, _⟩ => rfl | ⟨1, _⟩ => rfl | ⟨2, _⟩ => rfl

/-- Element (b, j, i, d) of the broadcast second argument is its element (b, j, d). -/
theorem idx_v1v3 (b : Fin 4) (j i : Fin 1024) (d : Fin 64) :
    idx_main_v1 (idx_main_v3 (ix4 b j i d)) = ix3 b j d := by
  funext a; match a with | ⟨0, _⟩ => rfl | ⟨1, _⟩ => rfl | ⟨2, _⟩ => rfl

/-- The sum over the last axis at (b, j, i) runs over the elements (b, j, i, d). -/
theorem idx_v6 (b : Fin 4) (j i : Fin 1024) (d : Fin 64) : idx_main_v6 (ix3 b j i) d = ix4 b j i d := by
  funext a; match a with | ⟨0, _⟩ => rfl | ⟨1, _⟩ => rfl | ⟨2, _⟩ => rfl | ⟨3, _⟩ => rfl

/-- The transpose reads (b, j, i) for (b, i, j). -/
theorem idx_v9 (b : Fin 4) (i j : Fin 1024) : idx_main_v9 (ix3 b i j) = ix3 b j i := by
  funext a; match a with | ⟨0, _⟩ => rfl | ⟨1, _⟩ => rfl | ⟨2, _⟩ => rfl

/-- The row value broadcast along j reads (b, i). -/
theorem idx_v16v17 (b : Fin 4) (i j : Fin 1024) : idx_main_v16 (idx_main_v17 (ix3 b i j)) = ix2 b i := by
  funext a; match a with | ⟨0, _⟩ => rfl | ⟨1, _⟩ => rfl

/-- The sum over j at (b, i) runs over the elements (b, i, j). -/
theorem idx_v20 (b : Fin 4) (i j : Fin 1024) : idx_main_v20 (ix2 b i) j = ix3 b i j := by
  funext a; match a with | ⟨0, _⟩ => rfl | ⟨1, _⟩ => rfl | ⟨2, _⟩ => rfl

/-- The row sum broadcast along j reads (b, i). -/
theorem idx_v21v22 (b : Fin 4) (i j : Fin 1024) : idx_main_v21 (idx_main_v22 (ix3 b i j)) = ix2 b i := by
  funext a; match a with | ⟨0, _⟩ => rfl | ⟨1, _⟩ => rfl

/-- The row maxima laid out [4, 1, 1024] read (b, i) at (b, 0, i). -/
theorem idx_v12 (b : Fin 4) (u : Fin 1) (i : Fin 1024) : idx_main_v12 (ix3 b u i) = ix2 b i := by
  funext a; match a with | ⟨0, _⟩ => rfl | ⟨1, _⟩ => rfl

/-! ## The stages -/

/-- The absolute difference at (b, j, i, d). -/
theorem ref_adiff (x0 x1 : SQ.Idx → EReal) (b : Fin 4) (j i : Fin 1024) (d : Fin 64) :
    val_main_v5 (F := Ideal) x0 x1 (ix4 b j i d) = adiff (x0 (ix3 b i d)) (x1 (ix3 b j d)) := by
  rw [val_main_v5_apply, val_main_v4_apply, val_main_v2_apply, val_main_v3_apply, val_main_v0_apply,
    val_main_v1_apply, idx_v0v2, idx_v1v3]
  rfl

/-- The sum over the features at (b, j, i): the word 0 plus the L1 distance of query row i and key row j. -/
theorem ref_sum (x0 x1 : SQ.Idx → EReal) (b : Fin 4) (j i : Fin 1024) :
    val_main_v6 (F := Ideal) x0 x1 (ix3 b j i) = Ideal.ofBits .f32 0x00000000#32 + l1 x0 x1 b i j := by
  rw [val_main_v6_apply, val_main_cst_apply]
  refine congrArg (Ideal.ofBits .f32 0x00000000#32 + ·) (Finset.sum_congr rfl fun d _ => ?_)
  rw [idx_v6]
  exact ref_adiff x0 x1 b j i d

/-- The score at (b, i, j). -/
theorem ref_score (x0 x1 : SQ.Idx → EReal) (b : Fin 4) (i j : Fin 1024) :
    val_main_v10 (F := Ideal) x0 x1 (ix3 b i j) = score x0 x1 b i j := by
  rw [val_main_v10_apply, val_main_v9_apply, idx_v9, val_main_v8_apply, val_main_v7_apply, val_main_cst_0_apply,
    ref_sum]
  exact score_ref_form (l1 x0 x1 b i j)

/-! ## The row maximum -/

/-- Inserting the coordinate j on the last axis of (b, i) gives (b, i, j). -/
theorem lift_row (h : S4x1024x1024.Reduces [2] S4x1024) (b : Fin 4) (i j : Fin 1024) :
    h.lift (ix2 b i) j = ix3 b i j := by
  funext a; refine Fin.ext ?_; match a with | ⟨0, _⟩ => rfl | ⟨1, _⟩ => rfl | ⟨2, _⟩ => rfl

/-- A maximum-reduction over the last axis of a [4, 1024, 1024] array, at (b, i): the fold of max over j from the
    initial value. -/
theorem reduce_max_row (y : S4x1024x1024.Idx → EReal) (c : S_.Idx → EReal) (b : Fin 4) (i : Fin 1024) :
    Host.reduce (FloatOps.maximumf (F := Ideal) (φ := .f32)) y c reducesTo_S4x1024x1024_S4x1024_d2 h_S_ (ix2 b i)
      = (Finset.univ : Finset (Fin 1024)).fold max (c (Shape.Idx.first h_S_)) (fun j => y (ix3 b i j)) := by
  have h : S4x1024x1024.Reduces [2] S4x1024 := by decide
  refine (Host.reduce_eq_fold_single _ y c reducesTo_S4x1024x1024_S4x1024_d2 h h_S_ (ix2 b i)).trans ?_
  have hf : y ∘ h.lift (ix2 b i) = fun j : Fin 1024 => y (ix3 b i j) :=
    funext fun j => congrArg y (lift_row h b i j)
  rw [hf]
  rfl

/-- The first maximum-reduction at (b, i) is the row maximum of the scores. -/
theorem ref_rowMax11 (x0 x1 : SQ.Idx → EReal) (b : Fin 4) (i : Fin 1024) :
    val_main_v11 (F := Ideal) x0 x1 (ix2 b i) = rowMax x0 x1 b i := by
  unfold val_main_v11
  refine (reduce_max_row _ _ b i).trans ?_
  rw [val_main_cst_1_apply]
  refine (fold_max_ninf _ _).trans ?_
  exact Finset.fold_congr fun j _ => ref_score x0 x1 b i j

/-- So is the second. -/
theorem ref_rowMax13 (x0 x1 : SQ.Idx → EReal) (b : Fin 4) (i : Fin 1024) :
    val_main_v13 (F := Ideal) x0 x1 (ix2 b i) = rowMax x0 x1 b i := by
  unfold val_main_v13
  refine (reduce_max_row _ _ b i).trans ?_
  rw [val_main_cst_2_apply]
  refine (fold_max_ninf _ _).trans ?_
  exact Finset.fold_congr fun j _ => ref_score x0 x1 b i j

/-- The maximum of the word −∞ and the row maximum is the row maximum. -/
theorem ref_rowMax15 (x0 x1 : SQ.Idx → EReal) (b : Fin 4) (i : Fin 1024) :
    val_main_v15 (F := Ideal) x0 x1 (ix2 b i) = rowMax x0 x1 b i := by
  rw [val_main_v15_apply, val_main_v14_apply, val_main_cst_3_apply, ref_rowMax13]
  show max (Ideal.ofBits .f32 0xFF800000#32) (rowMax x0 x1 b i) = rowMax x0 x1 b i
  rw [ofBits_ninf]
  exact max_eq_right bot_le

/-! ## The softmax -/

/-- The shifted exponential at (b, i, j). -/
theorem ref_expv (x0 x1 : SQ.Idx → EReal) (b : Fin 4) (i j : Fin 1024) :
    val_main_v19 (F := Ideal) x0 x1 (ix3 b i j) = expv x0 x1 b i j := by
  rw [val_main_v19_apply, val_main_v18_apply, val_main_v17_apply, val_main_v16_apply, idx_v16v17, ref_rowMax15,
    ref_score]
  rfl

/-- The row sum of the shifted exponentials at (b, i). -/
theorem ref_den (x0 x1 : SQ.Idx → EReal) (b : Fin 4) (i : Fin 1024) :
    val_main_v20 (F := Ideal) x0 x1 (ix2 b i) = ∑ j : Fin 1024, expv x0 x1 b i j := by
  rw [val_main_v20_apply, val_main_cst_4_apply]
  show Ideal.ofBits .f32 0x00000000#32 + _ = _
  rw [ofBits_zero, zero_add]
  refine Finset.sum_congr rfl fun j _ => ?_
  rw [idx_v20]
  exact ref_expv x0 x1 b i j

/-- The softmax weight at (b, i, j). -/
theorem ref_att_apply (x0 x1 : SQ.Idx → EReal) (b : Fin 4) (i j : Fin 1024) :
    val_main_v23 (F := Ideal) x0 x1 (ix3 b i j) = att x0 x1 b i j := by
  rw [val_main_v23_apply, val_main_v22_apply, val_main_v21_apply, idx_v21v22, ref_den, ref_expv]
  rfl

/-! ## The two results -/

/-- The reference's first result is the specification's softmax of the scores. -/
theorem ref_att (x0 x1 : SQ.Idx → EReal) : val_main_v23 (F := Ideal) x0 x1 = G0 x0 x1 := by
  funext x
  obtain ⟨b, i, j, rfl⟩ : ∃ (b : Fin 4) (i j : Fin 1024), x = ix3 b i j := ⟨x 0, x 1, x 2, eq_ix3 x⟩
  exact ref_att_apply x0 x1 b i j

/-- The reference's second result is the specification's row maxima, laid out [4, 1, 1024]. -/
theorem ref_max (x0 x1 : SQ.Idx → EReal) : val_main_v12 (F := Ideal) x0 x1 = G1 x0 x1 := by
  funext x
  obtain ⟨b, u, i, rfl⟩ : ∃ (b : Fin 4) (u : Fin 1) (i : Fin 1024), x = ix3 b u i := ⟨x 0, x 1, x 2, eq_ix3 x⟩
  rw [val_main_v12_apply, idx_v12]
  exact ref_rowMax11 x0 x1 b i

end Cert.L1Attn.Ref

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.KPay.lean ====
/-
  The kernel body's stored values read at an index, over the extended reals.

  The body keeps a [256, 1024] score buffer. Trip k of its loop stores the [256, 128] tile
  (0 − Σ_d |q[r,d] − yT[d,l]|) · (1/64) of the query block q : [1,256,64] and the key tile yT : [1,64,128];
  after the loop the body reads the buffer whole and stores the row maxima (as a row vector) and the shifted
  softmax exp(s − max) / Σ exp(s − max) of every row.
-/
import proofs.«160099_j1580547972197_2_alg».proof.Proof.Gen.KernelIdeal.Skeleton
import proofs.«160099_j1580547972197_2_alg».proof.Proof.Spec
import proofs.«160099_j1580547972197_2_alg».proof.Proof.LibLayout
import proofs.«160099_j1580547972197_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.L1Attn

/-- One entry of a score tile: row r of the query block against column l of the key tile. -/
def tile (v0 : S1x256x64.Idx → EReal) (v24 : S1x64x128.Idx → EReal) (r : Fin 256) (l : Fin 128) : EReal :=
  (Ideal.ofBits .f32 0x00000000#32 - ∑ d : Fin 64, adiff (v0 (ix3 (0 : Fin 1) r d)) (v24 (ix3 (0 : Fin 1) d l)))
    * Ideal.ofBits .f32 0x3C800000#32

/-- The sum over the middle axis of a [256, 64, 128] array whose entries are known. -/
theorem sum_mid (src : FVec Ideal S256x64x128 .f32) (g : Fin 64 → EReal) (r : Fin 256) (l : Fin 128)
    (hsrc : ∀ d : Fin 64, src (ix3 r d l) = g d) :
    multiReduction .add [1] S256x128 src 0x00000000#32 reduces_S256x64x128_S256x128 (.inl rfl) rfl (ix2 r l) = ∑ d : Fin 64, g d := by
  refine (Ideal.multiReduction_add_single src 0x00000000#32 reduces_S256x64x128_S256x128 (.inl rfl) rfl (ix2 r l)).trans ?_
  refine Finset.sum_congr rfl fun d _ => ?_
  rw [lift_mid_ix2]
  exact hsrc _

/-- The tile a trip stores. -/
theorem pay1_at (v0 : Vec Ideal S1x256x64 .f32) (v24 : Vec Ideal S1x64x128 .f32) (r : Fin 256) (l : Fin 128) :
    k0_pay1 v0 v24 (ix2 r l) = tile v0 v24 r l := by
  unfold k0_pay1
  simp only [shapeCast_self, shapeCast_shapeCast]
  unfold tile
  refine congrArg (fun s : EReal => (Ideal.ofBits .f32 0x00000000#32 - s) * Ideal.ofBits .f32 0x3C800000#32) (sum_mid _ _ r l fun d => ?_)
  show FloatOps.absf (FloatOps.subf (broadcastTo S256x64x128 _ _ (ix3 r d l)) (broadcastTo S256x64x128 _ _ (ix3 r d l))) = _
  rw [broadcastTo_ab1_abc_apply, shapeCast_ab_ab1_apply, shapeCast_1ab_ab_apply, broadcastTo_1bc_abc_apply]
  rfl

/-- The maximum of row r of a [256, 1024] buffer, taken from the word −∞. -/
def rmax (v4 : S256x1024.Idx → EReal) (r : Fin 256) : EReal :=
  (Finset.univ : Finset (Fin 1024)).fold max (Ideal.ofBits .f32 0xFF800000#32) (fun cc => v4 (ix2 r cc))

/-- The shifted exponential of entry (r, cc), and the softmax weight: its quotient by the row's sum. -/
def sexp (v4 : S256x1024.Idx → EReal) (r : Fin 256) (cc : Fin 1024) : EReal := Ideal.exp (v4 (ix2 r cc) - rmax v4 r)
def smax (v4 : S256x1024.Idx → EReal) (r : Fin 256) (cc : Fin 1024) : EReal :=
  Ideal.div (sexp v4 r cc) (∑ cc' : Fin 1024, sexp v4 r cc')

/-- The sum over the last axis of a [256, 1024] array whose entries are known. -/
theorem sum_last (src : FVec Ideal S256x1024 .f32) (g : Fin 1024 → EReal) (r : Fin 256)
    (hsrc : ∀ cc : Fin 1024, src (ix2 r cc) = g cc) :
    multiReduction .add [1] S256 src 0x00000000#32 reduces_S256x1024_S256 (.inl rfl) rfl (ix1 r) = ∑ cc : Fin 1024, g cc := by
  refine (Ideal.multiReduction_add_single src 0x00000000#32 reduces_S256x1024_S256 (.inl rfl) rfl (ix1 r)).trans ?_
  refine Finset.sum_congr rfl fun cc _ => ?_
  rw [lift_last_ix1]
  exact hsrc _

/-- The maximum over the last axis of a [256, 1024] array, from the word −∞. -/
theorem max_last (src : FVec Ideal S256x1024 .f32) (hφ : FKind.Formats .f32)
    (hacc : (0xFF800000#32 : BitVec 32) = FKind.maximumf.neutral .f32 hφ) (r : Fin 256) :
    multiReduction .maximumf [1] S256 src 0xFF800000#32 reduces_S256x1024_S256 hφ hacc (ix1 r) = rmax src r := by
  refine (Ideal.multiReduction_maximumf_single src 0xFF800000#32 reduces_S256x1024_S256 hφ hacc (ix1 r)).trans ?_
  unfold rmax
  refine congrArg (fun f => Finset.fold max (Ideal.ofBits .f32 0xFF800000#32) f (Finset.univ : Finset (Fin 1024))) ?_
  funext k
  exact congrArg src (lift_last_ix1 _ r k)

/-- The column of row maxima. -/
theorem pay2_at (v4 : Vec Ideal S256x1024 .f32) (r : Fin 256) (u : Fin 1) : k0_pay2 v4 (ix2 r u) = rmax v4 r := by
  unfold k0_pay2
  rw [shapeCast_a_a1_apply]
  exact max_last v4 _ _ r

/-- The shifted exponentials, entry by entry. -/
theorem exp_at (v4 : Vec Ideal S256x1024 .f32) (r : Fin 256) (cc : Fin 1024) :
    (exp (subf v4 (broadcastTo S256x1024 (k0_pay2 v4) broadcasts_S256x1_S256x1024)) : FVec Ideal S256x1024 .f32) (ix2 r cc)
      = sexp v4 r cc := by
  show Ideal.exp (v4 (ix2 r cc) - broadcastTo S256x1024 (k0_pay2 v4) broadcasts_S256x1_S256x1024 (ix2 r cc)) = _
  rw [broadcastTo_a1_ab_apply, pay2_at]
  rfl

/-- The softmax block. -/
theorem pay3_at (v4 : Vec Ideal S256x1024 .f32) (u : Fin 1) (r : Fin 256) (cc : Fin 1024) :
    k0_pay3 v4 (ix3 u r cc) = smax v4 r cc := by
  unfold k0_pay3
  rw [shapeCast_ab_1ab_apply]
  unfold smax
  refine congrArg₂ Ideal.div (exp_at v4 r cc) ?_
  rw [broadcastTo_a1_ab_apply, shapeCast_a_a1_apply]
  exact sum_last _ _ r fun cc' => exp_at v4 r cc'

/-- The row maxima laid out as a row. -/
theorem pay4_at (v4 : Vec Ideal S256x1024 .f32) (u u' : Fin 1) (r : Fin 256) :
    k0_pay4 v4 (ix3 u u' r) = rmax v4 r := by
  unfold k0_pay4
  rw [shapeCast_ab_1ab_apply, transpose_ix2_apply, pay2_at]

end Cert.KernelIdeal.Pay

end
-- ==== Proof.KScore.lean ====
/-
  The score buffer one grid point builds, in closed form: entry (r, cc) scores row r of the point's query block
  q : [1, 256, 64] against column cc of its (transposed) key block yT : [1, 64, 1024], as
  (0 − Σ_d |q[r,d] − yT[d,cc]|) · (1/64). Row r of the block at query-tile index qi is row 256·qi + r of the array.
-/
import proofs.«160099_j1580547972197_2_alg».proof.Proof.KPay

noncomputable section

namespace Cert.KernelIdeal.Pay

open Cert.KernelIdeal Idealize.ShloMosaic Idealize.ShloMosaic.ValueIdx Cert.L1Attn

/-- One entry of the score buffer. -/
def scoreAt (x0 : S1x256x64.Idx → EReal) (x1 : S1x64x1024.Idx → EReal) (r : Fin 256) (cc : Fin 1024) : EReal :=
  (Ideal.ofBits .f32 0x00000000#32 - ∑ d : Fin 64, adiff (x0 (ix3 (0 : Fin 1) r d)) (x1 (ix3 (0 : Fin 1) d cc)))
    * Ideal.ofBits .f32 0x3C800000#32

/-- The buffer. -/
def scoreBuf (x0 : S1x256x64.Idx → EReal) (x1 : S1x64x1024.Idx → EReal) : S256x1024.Idx → EReal :=
  fun y => scoreAt x0 x1 (y 0) (y 1)

theorem scoreBuf_ix2 (x0 : S1x256x64.Idx → EReal) (x1 : S1x64x1024.Idx → EReal) (r : Fin 256) (cc : Fin 1024) :
    scoreBuf x0 x1 (ix2 r cc) = scoreAt x0 x1 r cc := rfl

/-- Row r of the query tile qi, as a row of the [4, 1024, ·] arrays. -/
def rowOf (qi : Fin 4) (r : Fin 256) : Fin 1024 :=
  ⟨256 * qi.val + r.val, by have := qi.isLt; have := r.isLt; omega⟩

theorem rowOf_val (qi : Fin 4) (r : Fin 256) : (rowOf qi r).val = 256 * qi.val + r.val := rfl

end Cert.KernelIdeal.Pay

end
-- ==== Proof.KPieces.lean ====
/-
  What the body leaves at one grid point, read off the pieces its run found.

  Each of the loop's eight trips stores one [256, 128] tile of scores at lane offset 128·k; every tile is the
  restriction of ONE [256, 1024] function of the point's two input blocks (the score buffer in closed form), and the
  tiles cover the buffer, so the whole-buffer load after the loop reads that function. The two stores after the loop
  are the softmax and the row maxima of it.
-/
import proofs.«160099_j1580547972197_2_alg».proof.Proof.KernelIdealFrame
import proofs.«160099_j1580547972197_2_alg».proof.Proof.KScore
import Idealize.ShloMosaic.Lib.Pipeline.Value
import Idealize.ShloMosaic.Lib.Pipeline.FrameBody

set_option maxRecDepth 16384

noncomputable section

namespace Cert.KernelIdeal.Pieces

open Cert.KernelIdeal Cert.KernelIdeal.Gen Cert.KernelIdeal.Pay Cert.L1Attn
open Idealize.ShloMosaic Idealize.ShloMosaic.TcCoe Idealize.ShloMosaic.ValueIdx Idealize.SL.Sem

/-- The piece one trip stores: the tile of its query block and the key tile it loads, at the trip's lane offset. -/
theorem tripL_eq (𝒱 : Variants) (c : Dev nD) (bd : Option 𝒱.V) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (v0 : Vec Ideal S1x256x64 .f32) (X : BufTy.Contents (Elt Ideal) arg3.view.ty) (k : Fin k0_t1_loop.trips) :
    tripL_k0_t1 (F := Ideal) 𝒱 c bd i arg2 harg2 arg3 harg3 arg4 harg4 arg5 harg5 arg6 harg6 v0 X k
      = [(⟨Rect.unit (s := S256x1024) (k0_off2 k) S256x128.size (k0_off2_inb k),
          k0_pay1 v0 (View.readAt (Elt Ideal) arg3.view (Rect.unit (s := S1x64x1024) (k0_off1 k) S1x64x128.size (k0_off1_inb k)).toLoadRect X)⟩ : View.Piece (Elt Ideal) S256x1024 .f32)] := by
  unfold tripL_k0_t1 trip_k0_t1
  rfl

/-- Trip k's lane offsets, as numbers. -/
theorem off2_val (k : Fin k0_t1_loop.trips) : k0_off2 k 0 = 0 ∧ k0_off2 k 1 = 128 * k.val := by
  rw [k0_off2_eq]; exact ⟨rfl, rfl⟩

theorem off1_val (k : Fin k0_t1_loop.trips) : k0_off1 k 0 = 0 ∧ k0_off1 k 1 = 0 ∧ k0_off1 k 2 = 128 * k.val := by
  rw [k0_off1_eq]; exact ⟨rfl, rfl, rfl⟩

/-- Trip k's tile at its local index (r, l) is the score buffer at (r, 128·k + l): the key tile it loads is the
    key block's columns 128·k … 128·k + 127. -/
theorem trip_piece_at (arg3 : Memref sig .tc .vmem S1x64x1024 .f32) (v0 : Vec Ideal S1x256x64 .f32)
    (X : BufTy.Contents (Elt Ideal) arg3.view.ty) (k : Fin k0_t1_loop.trips) (r : Fin 256) (l : Fin 128) :
    k0_pay1 v0 (View.readAt (Elt Ideal) arg3.view (Rect.unit (s := S1x64x1024) (k0_off1 k) S1x64x128.size (k0_off1_inb k)).toLoadRect X) (ix2 r l)
      = scoreBuf v0 (arg3.view.read (Elt Ideal) X) ((Rect.unit (s := S256x1024) (k0_off2 k) S256x128.size (k0_off2_inb k)).emb (ix2 r l)) := by
  have hk : k.val < 8 := Nat.lt_of_lt_of_le k.isLt k0_t1_abs.2.1
  obtain ⟨o20, o21⟩ := off2_val k
  obtain ⟨o10, o11, o12⟩ := off1_val k
  have hemb : (Rect.unit (s := S256x1024) (k0_off2 k) S256x128.size (k0_off2_inb k)).emb (ix2 r l)
      = ix2 r (⟨128 * k.val + l.val, by omega⟩ : Fin 1024) := by
    funext a; apply Fin.ext
    match a with
    | ⟨0, _⟩ => show k0_off2 k 0 + 1 * r.val = r.val; omega
    | ⟨1, _⟩ => show k0_off2 k 1 + 1 * l.val = 128 * k.val + l.val; omega
  rw [hemb, scoreBuf_ix2, pay1_at]
  unfold tile scoreAt
  refine congrArg (fun s : EReal => (Ideal.ofBits .f32 0x00000000#32 - s) * Ideal.ofBits .f32 0x3C800000#32)
    (Finset.sum_congr rfl fun d _ => ?_)
  refine congrArg (adiff (v0 (ix3 (0 : Fin 1) r d))) ?_
  show arg3.view.read (Elt Ideal) X ((Rect.unit (s := S1x64x1024) (k0_off1 k) S1x64x128.size (k0_off1_inb k)).toLoadRect.idx (ix3 (0 : Fin 1) d l)) = _
  refine congrArg (arg3.view.read (Elt Ideal) X) ?_
  funext a; apply Fin.ext
  match a with
  | ⟨0, _⟩ => show k0_off1 k 0 + 1 * 0 = 0; omega
  | ⟨1, _⟩ => show k0_off1 k 1 + 1 * d.val = d.val; omega
  | ⟨2, _⟩ => show k0_off1 k 2 + 1 * l.val = 128 * k.val + l.val; omega

/-- Every piece the loop's trips before n stored is the restriction of the score buffer to its rectangle. -/
theorem pb_restricts (𝒱 : Variants) (c : Dev nD) (bd : Option 𝒱.V) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (v0 : Vec Ideal S1x256x64 .f32) (X : BufTy.Contents (Elt Ideal) arg3.view.ty) :
    ∀ (n : ℕ) (p : View.Piece (Elt Ideal) S256x1024 .f32), p ∈ pb_k0_t1 (F := Ideal) 𝒱 c bd i arg2 harg2 arg3 harg3 arg4 harg4 arg5 harg5 arg6 harg6 v0 X n →
      ∀ x : p.1.shape.Idx, p.2 x = scoreBuf v0 (arg3.view.read (Elt Ideal) X) (p.1.emb x)
  | 0, p, hp, _ => by rw [pb_k0_t1.eq_1] at hp; exact absurd hp List.not_mem_nil
  | n + 1, p, hp, x => by
    rw [pb_k0_t1.eq_2] at hp
    unfold pb_k0_t1Step at hp
    split at hp
    · rename_i hn
      rcases List.mem_append.mp hp with h | h
      · rw [tripL_eq] at h
        obtain rfl := List.mem_singleton.mp h
        obtain ⟨r, l, rfl⟩ : ∃ (r : Fin 256) (l : Fin 128), x = ix2 r l := ⟨x 0, x 1, eq_ix2 x⟩
        exact trip_piece_at arg3 v0 X ⟨n, hn⟩ r l
      · exact pb_restricts 𝒱 c bd i arg2 harg2 arg3 harg3 arg4 harg4 arg5 harg5 arg6 harg6 v0 X n p h x
    · exact pb_restricts 𝒱 c bd i arg2 harg2 arg3 harg3 arg4 harg4 arg5 harg5 arg6 harg6 v0 X n p hp x

theorem zeros3 : (![0, 0, 0] : Fin 3 → Nat) = fun _ => 0 := funext fun a => by fin_cases a <;> rfl

/-- The whole-buffer load after the loop reads the score buffer of the point's two input blocks: the tiles cover
    the buffer and each is a restriction of that one function. -/
theorem scratch_eq (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32) :
    arg6.view.readCov (pb_k0_t1 (F := Ideal) Variants.none c none i arg2 harg2 arg3 harg3 arg4 harg4 arg5 harg5 arg6 harg6
        (View.readAt (Elt Ideal) arg2.view (Rect.unit (s := S1x256x64) ![0, 0, 0] S1x256x64.size inb_S1x256x64_S1x256x64_0_0_0).toLoadRect (harg2.unread x0))
        (harg3.unread x1) (Scf.trips k0_t1_loop.lb k0_t1_loop.ub k0_t1_loop.st))
      (Rect.unit (s := S256x1024) ![0, 0] S256x1024.size inb_S256x1024_S256x1024_0_0).toLoadRect
      = scoreBuf x0 x1 := by
  rw [View.readCov_eq_canon']
  funext j
  have hj : (Rect.unit (s := S256x1024) ![0, 0] S256x1024.size inb_S256x1024_S256x1024_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj]
  refine (View.canon_apply_of_pieces _ _ (pb_restricts Variants.none c none i arg2 harg2 arg3 harg3 arg4 harg4 arg5 harg5 arg6 harg6 _ _ _) j
    (GenP.scover0_A Variants.none c none i arg2 harg2 arg3 harg3 arg4 harg4 arg5 harg5 arg6 harg6 _ _ j)).trans ?_
  rw [harg3.read_unread x1, View.readAt_eq_ld, harg2.read_unread x0, View.ld_unit_zero zeros3]

/-- The first output block: the softmax of the score buffer. -/
theorem out2_eq (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32) :
    GenP.out0_A_2 (F := Ideal) c i arg2 harg2 arg3 harg3 arg4 harg4 arg5 harg5 arg6 harg6 x0 x1 = (k0_pay3 (F := Ideal) (scoreBuf x0 x1) : Vec Ideal S1x256x1024 .f32) := by
  unfold GenP.out0_A_2
  rw [View.read_writes_eq_canon _ _ _ (GenP.cover0_A_2 c i arg2 harg2 arg3 harg3 arg4 harg4 arg5 harg5 arg6 harg6 x0 x1)]
  unfold GenP.kernelRun0_A
  dsimp only
  rw [View.canon_unit_zero zeros3]
  exact congrArg (k0_pay3 (F := Ideal)) (scratch_eq c i arg2 harg2 arg3 harg3 arg4 harg4 arg5 harg5 arg6 harg6 x0 x1)

/-- The second output block: the row maxima of the score buffer, as a row. -/
theorem out3_eq (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32) :
    GenP.out0_A_3 (F := Ideal) c i arg2 harg2 arg3 harg3 arg4 harg4 arg5 harg5 arg6 harg6 x0 x1 = (k0_pay4 (F := Ideal) (scoreBuf x0 x1) : Vec Ideal S1x1x256 .f32) := by
  unfold GenP.out0_A_3
  rw [View.read_writes_eq_canon _ _ _ (GenP.cover0_A_3 c i arg2 harg2 arg3 harg3 arg4 harg4 arg5 harg5 arg6 harg6 x0 x1)]
  unfold GenP.kernelRun0_A
  dsimp only
  rw [View.canon_unit_zero zeros3]
  exact congrArg (k0_pay4 (F := Ideal)) (scratch_eq c i arg2 harg2 arg3 harg3 arg4 harg4 arg5 harg5 arg6 harg6 x0 x1)

end Cert.KernelIdeal.Pieces

end
-- ==== Proof.KBlocks.lean ====
/-
  From one grid point's blocks to the whole arrays.

  Grid point (b, qi) reads rows 256·qi … 256·qi + 255 of batch b of the queries and the whole (transposed) key
  array of batch b, and writes the same rows of the softmax result and the same stretch of the row maxima.  Its
  score buffer at (r, cc) is the specification's score of query row 256·qi + r against key row cc, so what it
  writes is the specification's softmax weight and row maximum read through its block; the sixteen blocks cover
  both result arrays.
-/
import proofs.«160099_j1580547972197_2_alg».proof.Proof.KernelIdealFrame
import proofs.«160099_j1580547972197_2_alg».proof.Proof.KScore
import proofs.«160099_j1580547972197_2_alg».proof.Proof.Spec
import Idealize.ShloMosaic.Lib.Pipeline.Value
import Idealize.ShloMosaic.Lib.StableHlo.Run
import Idealize.ShloMosaic.Lib.ValueLayout
import Idealize.ShloMosaic.Lib.ValueIdx

noncomputable section

namespace Cert.KernelIdeal.Blocks

open Cert.KernelIdeal Cert.KernelIdeal.Gen Cert.KernelIdeal.Pay Cert.L1Attn
open Idealize.ShloMosaic Idealize.ShloMosaic.TcCoe Idealize.SL.Sem Idealize.ShloMosaic.ValueIdx
open Idealize.ShloMosaic.Pipeline (Dat)

/-! ## One point's buffer against the specification -/

section Point

variable (x0 : S1x256x64.Idx → EReal) (x1 : S1x64x1024.Idx → EReal) (q y : SQ.Idx → EReal) (b qi : Fin 4)
  (h0 : ∀ (r : Fin 256) (d : Fin 64), x0 (ix3 (0 : Fin 1) r d) = q (ix3 b (rowOf qi r) d))
  (h1 : ∀ (d : Fin 64) (cc : Fin 1024), x1 (ix3 (0 : Fin 1) d cc) = y (ix3 b cc d))

include h0 h1

/-- The buffer's entry (r, cc) is the score of query row 256·qi + r against key row cc. -/
theorem scoreAt_eq (r : Fin 256) (cc : Fin 1024) : scoreAt x0 x1 r cc = score q y b (rowOf qi r) cc := by
  unfold scoreAt
  have hs : ∑ d : Fin 64, adiff (x0 (ix3 (0 : Fin 1) r d)) (x1 (ix3 (0 : Fin 1) d cc)) = l1 q y b (rowOf qi r) cc :=
    Finset.sum_congr rfl fun d _ => by rw [h0, h1]
  rw [hs]
  exact score_kernel_form _

/-- Row r's maximum is the row maximum of the scores of query row 256·qi + r. -/
theorem rmax_eq (r : Fin 256) : rmax (scoreBuf x0 x1) r = rowMax q y b (rowOf qi r) := by
  unfold rmax rowMax
  refine (fold_max_ninf _ _).trans ?_
  exact Finset.fold_congr fun cc _ => scoreAt_eq x0 x1 q y b qi h0 h1 r cc

/-- The shifted exponential. -/
theorem sexp_eq (r : Fin 256) (cc : Fin 1024) : sexp (scoreBuf x0 x1) r cc = expv q y b (rowOf qi r) cc := by
  unfold sexp expv
  rw [scoreBuf_ix2, scoreAt_eq x0 x1 q y b qi h0 h1, rmax_eq x0 x1 q y b qi h0 h1]

/-- The softmax weight. -/
theorem smax_eq (r : Fin 256) (cc : Fin 1024) : smax (scoreBuf x0 x1) r cc = att q y b (rowOf qi r) cc := by
  unfold smax att
  rw [sexp_eq x0 x1 q y b qi h0 h1]
  exact congrArg (Ideal.div _) (Finset.sum_congr rfl fun cc' _ => sexp_eq x0 x1 q y b qi h0 h1 r cc')

end Point

/-! ## The index maps, decided over the sixteen points -/

/-- Point t's blocks: the query block and both result blocks sit at (b, qi), the key block at b. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = 0
    ∧ win0_3.index t (2 : Fin 3) = win0_2.index t (1 : Fin 3)
    ∧ win0_2.index t (0 : Fin 3) ≤ 3 ∧ win0_2.index t (1 : Fin 3) ≤ 3 ∧ win0_2.index t (2 : Fin 3) = 0 :=
  (by decide +kernel : ∀ t : Fin grid0.N, _)

/-- Every (b, qi) is some point's. -/
theorem idx_onto2 : ∀ (q0 q1 : Fin 4), ∃ t : Fin cfg0.N, win0_2.index t = ![q0.val, q1.val, 0] :=
  (by decide +kernel : ∀ (q0 q1 : Fin 4), ∃ t : Fin grid0.N, win0_2.index t = ![q0.val, q1.val, 0])

theorem idx_onto3 : ∀ (q0 q1 : Fin 4), ∃ t : Fin cfg0.N, win0_3.index t = ![q0.val, 0, q1.val] :=
  (by decide +kernel : ∀ (q0 q1 : Fin 4), ∃ t : Fin grid0.N, win0_3.index t = ![q0.val, 0, q1.val])

variable (m : (ℓ : Loc nD τ sig) → Buf (Elt Ideal) ℓ)

/-! ## The arrays the region finds, and one point's input blocks -/

/-- The key array as the region finds it is the host's transpose of the second argument. -/
theorem V_keys (c : Dev nD) :
    (V m c main_v0 : S4x64x1024.Idx → EReal)
      = transpose S4x64x1024 [0, 2, 1] (m ((c : Thread nD τ).loc main_arg1)) transposes_S4x1024x64_S4x64x1024_0_2_1 := by
  dsimp only [Gen.V, Gen.hostOps0]; after_results

/-- So its entry (b, d, j) is the second argument's entry (b, j, d). -/
theorem V_keys_at (c : Dev nD) (b : Fin 4) (d : Fin 64) (j : Fin 1024) :
    (V m c main_v0 : S4x64x1024.Idx → EReal) (ix3 b d j)
      = (m ((c : Thread nD τ).loc main_arg1) : S4x1024x64.Idx → EReal) (ix3 b j d) := by
  rw [V_keys m c]
  exact transpose_ix3_021_apply _ _ b d j

/-- Row r, feature d of point t's query block is row 256·qi + r of batch b of the first argument. -/
theorem qblock_at (c : Dev nD) (t : Fin cfg0.N) (b qi : Fin 4)
    (hb : win0_0.index t (0 : Fin 3) = b.val) (hq : win0_0.index t (1 : Fin 3) = qi.val)
    (hz : win0_0.index t (2 : Fin 3) = 0) (r : Fin 256) (d : Fin 64) :
    (iblk m c 0 t : Vec Ideal S1x256x64 .f32) (ix3 (0 : Fin 1) r d)
      = (m ((c : Thread nD τ).loc main_arg0) : S4x1024x64.Idx → EReal) (ix3 b (rowOf qi r) d) := by
  rw [← V_main_arg0 m c]
  show V m c main_arg0 (((cfg0.win 0).blk t).view.emb (ix3 (0 : Fin 1) r d)) = V m c main_arg0 (ix3 b (rowOf qi r) d)
  refine congrArg (V m c main_arg0) (funext fun a => Fin.ext ?_)
  match a with
  | ⟨0, _⟩ => show win0_0.index t (0 : Fin 3) * 1 + 1 * (0 : Fin 1).val = b.val; rw [hb]; simp
  | ⟨1, _⟩ => show win0_0.index t (1 : Fin 3) * 256 + 1 * r.val = 256 * qi.val + r.val; rw [hq]; omega
  | ⟨2, _⟩ => show win0_0.index t (2 : Fin 3) * 64 + 1 * d.val = d.val; rw [hz]; omega

/-- Feature d, column cc of point t's key block is key row cc of batch b of the second argument. -/
theorem kblock_at (c : Dev nD) (t : Fin cfg0.N) (b : Fin 4)
    (hb : win0_1.index t (0 : Fin 3) = b.val) (h1 : win0_1.index t (1 : Fin 3) = 0)
    (h2 : win0_1.index t (2 : Fin 3) = 0) (d : Fin 64) (cc : Fin 1024) :
    (iblk m c 1 t : Vec Ideal S1x64x1024 .f32) (ix3 (0 : Fin 1) d cc)
      = (m ((c : Thread nD τ).loc main_arg1) : S4x1024x64.Idx → EReal) (ix3 b cc d) := by
  rw [← V_keys_at m c b d cc]
  show V m c main_v0 (((cfg0.win 1).blk t).view.emb (ix3 (0 : Fin 1) d cc)) = V m c main_v0 (ix3 b d cc)
  refine congrArg (V m c main_v0) (funext fun a => Fin.ext ?_)
  match a with
  | ⟨0, _⟩ => show win0_1.index t (0 : Fin 3) * 1 + 1 * (0 : Fin 1).val = b.val; rw [hb]; simp
  | ⟨1, _⟩ => show win0_1.index t (1 : Fin 3) * 64 + 1 * d.val = d.val; rw [h1]; omega
  | ⟨2, _⟩ => show win0_1.index t (2 : Fin 3) * 1024 + 1 * cc.val = cc.val; rw [h2]; omega

/-- Entry (u, r, cc) of point t's softmax block sits at (b, 256·qi + r, cc) of the array. -/
theorem emb2_at (t : Fin cfg0.N) (b qi : Fin 4)
    (hb : win0_2.index t (0 : Fin 3) = b.val) (hq : win0_2.index t (1 : Fin 3) = qi.val)
    (hz : win0_2.index t (2 : Fin 3) = 0) (u : Fin 1) (r : Fin 256) (cc : Fin 1024) :
    (((cfg0.win 2).blk t).view.emb (ix3 u r cc) : S4x1024x1024.Idx) = ix3 b (rowOf qi r) cc := by
  funext a; refine Fin.ext ?_
  match a with
  | ⟨0, _⟩ => show win0_2.index t (0 : Fin 3) * 1 + 1 * u.val = b.val; rw [hb]; have := u.isLt; omega
  | ⟨1, _⟩ => show win0_2.index t (1 : Fin 3) * 256 + 1 * r.val = 256 * qi.val + r.val; rw [hq]; omega
  | ⟨2, _⟩ => show win0_2.index t (2 : Fin 3) * 1024 + 1 * cc.val = cc.val; rw [hz]; omega

/-- Entry (u, u', r) of point t's row-maximum block sits at (b, 0, 256·qi + r) of the array. -/
theorem emb3_at (t : Fin cfg0.N) (b qi : Fin 4)
    (hb : win0_3.index t (0 : Fin 3) = b.val) (h1 : win0_3.index t (1 : Fin 3) = 0)
    (hq : win0_3.index t (2 : Fin 3) = qi.val) (u u' : Fin 1) (r : Fin 256) :
    (((cfg0.win 3).blk t).view.emb (ix3 u u' r) : S4x1x1024.Idx) = ix3 b (0 : Fin 1) (rowOf qi r) := by
  funext a; refine Fin.ext ?_
  match a with
  | ⟨0, _⟩ => show win0_3.index t (0 : Fin 3) * 1 + 1 * u.val = b.val; rw [hb]; have := u.isLt; omega
  | ⟨1, _⟩ => show win0_3.index t (1 : Fin 3) * 1 + 1 * u'.val = 0; rw [h1]; have := u'.isLt; omega
  | ⟨2, _⟩ => show win0_3.index t (2 : Fin 3) * 256 + 1 * r.val = 256 * qi.val + r.val; rw [hq]; omega

/-! ## What one point writes back -/

/-- Point t's softmax block, entry by entry, is the specification's softmax read where the block sits. -/
theorem block2_at (c : Dev nD) (t : Fin cfg0.N) (j : S1x256x1024.Idx) :
    (k0_pay3 (F := Ideal) (scoreBuf (iblk m c 0 t) (iblk m c 1 t)) : Vec Ideal S1x256x1024 .f32) j
      = G0 (m ((c : Thread nD τ).loc main_arg0)) (m ((c : Thread nD τ).loc main_arg1)) (((cfg0.win 2).blk t).view.emb j) := by
  obtain ⟨e00, e01, e02, e10, e11, e12, e30, e31, e32, hb, hq, e22⟩ := idx_facts t
  obtain ⟨u, r, cc, rfl⟩ : ∃ (u : Fin 1) (r : Fin 256) (cc : Fin 1024), j = ix3 u r cc := ⟨j 0, j 1, j 2, eq_ix3 j⟩
  refine (pay3_at _ u r cc).trans ?_
  refine (smax_eq _ _ (m ((c : Thread nD τ).loc main_arg0)) (m ((c : Thread nD τ).loc main_arg1))
    ⟨win0_2.index t (0 : Fin 3), by omega⟩ ⟨win0_2.index t (1 : Fin 3), by omega⟩
    (fun r d => qblock_at m c t _ _ e00 e01 e02 r d) (fun d cc => kblock_at m c t _ e10 e11 e12 d cc) r cc).trans ?_
  rw [emb2_at t ⟨win0_2.index t (0 : Fin 3), by omega⟩ ⟨win0_2.index t (1 : Fin 3), by omega⟩ rfl rfl e22 u r cc]
  rfl

/-- Point t's row-maximum block, entry by entry, is the specification's row maxima read where the block sits. -/
theorem block3_at (c : Dev nD) (t : Fin cfg0.N) (j : S1x1x256.Idx) :
    (k0_pay4 (F := Ideal) (scoreBuf (iblk m c 0 t) (iblk m c 1 t)) : Vec Ideal S1x1x256 .f32) j
      = G1 (m ((c : Thread nD τ).loc main_arg0)) (m ((c : Thread nD τ).loc main_arg1)) (((cfg0.win 3).blk t).view.emb j) := by
  obtain ⟨e00, e01, e02, e10, e11, e12, e30, e31, e32, hb, hq, e22⟩ := idx_facts t
  obtain ⟨u, u', r, rfl⟩ : ∃ (u u' : Fin 1) (r : Fin 256), j = ix3 u u' r := ⟨j 0, j 1, j 2, eq_ix3 j⟩
  refine (pay4_at _ u u' r).trans ?_
  refine (rmax_eq _ _ (m ((c : Thread nD τ).loc main_arg0)) (m ((c : Thread nD τ).loc main_arg1))
    ⟨win0_2.index t (0 : Fin 3), by omega⟩ ⟨win0_2.index t (1 : Fin 3), by omega⟩
    (fun r d => qblock_at m c t _ _ e00 e01 e02 r d) (fun d cc => kblock_at m c t _ e10 e11 e12 d cc) r).trans ?_
  rw [emb3_at t ⟨win0_2.index t (0 : Fin 3), by omega⟩ ⟨win0_2.index t (1 : Fin 3), by omega⟩ e30 e31 e32 u u' r]
  rfl

/-- WHAT POINT t WRITES BACK to the softmax array is block t of the specification's softmax. -/
theorem flushed2_eq
    (hout2 : ∀ (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32),
          GenP.out0_A_2 (F := Ideal) c i arg2 harg2 arg3 harg3 arg4 harg4 arg5 harg5 arg6 harg6 x0 x1 = (k0_pay3 (F := Ideal) (scoreBuf x0 x1) : Vec Ideal S1x256x1024 .f32))
    (c : Dev nD) (t : Fin cfg0.N) :
    (GenP.dats m 0 c).flushed 2 t = ((cfg0.win 2).blk t).view.read (Elt Ideal)
      (G0 (m ((c : Thread nD τ).loc main_arg0)) (m ((c : Thread nD τ).loc main_arg1))) := by
  show (cfg0.win 2).cut (grid0.coords t) ((GenP.dats m 0 c).after 2 t) = _
  rw [GenP.after0_2]
  unfold GenP.outsAt0
  dsimp only
  rw [hout2]
  funext j
  exact block2_at m c t j

/-- WHAT POINT t WRITES BACK to the row-maximum array is block t of the specification's row maxima. -/
theorem flushed3_eq
    (hout3 : ∀ (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32),
          GenP.out0_A_3 (F := Ideal) c i arg2 harg2 arg3 harg3 arg4 harg4 arg5 harg5 arg6 harg6 x0 x1 = (k0_pay4 (F := Ideal) (scoreBuf x0 x1) : Vec Ideal S1x1x256 .f32))
    (c : Dev nD) (t : Fin cfg0.N) :
    (GenP.dats m 0 c).flushed 3 t = ((cfg0.win 3).blk t).view.read (Elt Ideal)
      (G1 (m ((c : Thread nD τ).loc main_arg0)) (m ((c : Thread nD τ).loc main_arg1))) := by
  show (cfg0.win 3).cut (grid0.coords t) ((GenP.dats m 0 c).after 3 t) = _
  rw [GenP.after0_3]
  unfold GenP.outsAt0
  dsimp only
  rw [hout3]
  funext j
  exact block3_at m c t j

/-! ## The blocks cover the arrays -/

/-- An index of the softmax array is in point t's block iff each coordinate is in the block's range on its axis. -/
theorem mem_blk2 (t : Fin cfg0.N) (i : S4x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v1_0).slice (win0_2.rect t)).set ↔ _
  rw [View.set_slice_whole, Rect.mem_set_unit]
  exact Iff.rfl

/-- The same for the row-maximum array. -/
theorem mem_blk3 (t : Fin cfg0.N) (i : S4x1x1024.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v1_1).slice (win0_3.rect t)).set ↔ _
  rw [View.set_slice_whole, Rect.mem_set_unit]
  exact Iff.rfl

/-- Entry (b, i, j) of the softmax array is in the block of the point (b, i / 256). -/
theorem cover2 (i : S4x1024x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 1024 := (i 2).isLt
  obtain ⟨t, ht⟩ := idx_onto2 ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- Entry (b, 0, i) of the row-maximum array is in the block of the point (b, i / 256). -/
theorem cover3 (i : S4x1x1024.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 1024 := (i 2).isLt
  obtain ⟨t, ht⟩ := idx_onto3 ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; omega

/-! ## The two arrays after the run -/

/-- THE SOFTMAX ARRAY after the run is the specification's softmax of the two arguments. -/
theorem final2
    (hout2 : ∀ (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32),
          GenP.out0_A_2 (F := Ideal) c i arg2 harg2 arg3 harg3 arg4 harg4 arg5 harg5 arg6 harg6 x0 x1 = (k0_pay3 (F := Ideal) (scoreBuf x0 x1) : Vec Ideal S1x256x1024 .f32))
    (c : Dev nD) :
    (GenP.dats m 0 c).arrAt 2 cfg0.N = G0 (m ((c : Thread nD τ).loc main_arg0)) (m ((c : Thread nD τ).loc main_arg1)) :=
  (GenP.dats m 0 c).arrAt_eq_of_cover 2 (G0 (m ((c : Thread nD τ).loc main_arg0)) (m ((c : Thread nD τ).loc main_arg1)))
    (fun t _ => flushed2_eq m hout2 c t) cover2

/-- THE ROW-MAXIMUM ARRAY after the run is the specification's row maxima of the two arguments. -/
theorem final3
    (hout3 : ∀ (c : Dev nD) (i : grid0.Coords) (arg2 : Memref sig .tc .vmem S1x256x64 .f32) (harg2 : arg2.IsWhole) (arg3 : Memref sig .tc .vmem S1x64x1024 .f32) (harg3 : arg3.IsWhole) (arg4 : Memref sig .tc .vmem S1x256x1024 .f32) (harg4 : arg4.IsWhole) (arg5 : Memref sig .tc .vmem S1x1x256 .f32) (harg5 : arg5.IsWhole) (arg6 : Memref sig .tc .vmem S256x1024 .f32) (harg6 : arg6.IsWhole) (x0 : Vec Ideal S1x256x64 .f32) (x1 : Vec Ideal S1x64x1024 .f32),
          GenP.out0_A_3 (F := Ideal) c i arg2 harg2 arg3 harg3 arg4 harg4 arg5 harg5 arg6 harg6 x0 x1 = (k0_pay4 (F := Ideal) (scoreBuf x0 x1) : Vec Ideal S1x1x256 .f32))
    (c : Dev nD) :
    (GenP.dats m 0 c).arrAt 3 cfg0.N = G1 (m ((c : Thread nD τ).loc main_arg0)) (m ((c : Thread nD τ).loc main_arg1)) :=
  (GenP.dats m 0 c).arrAt_eq_of_cover 3 (G1 (m ((c : Thread nD τ).loc main_arg0)) (m ((c : Thread nD τ).loc main_arg1)))
    (fun t _ => flushed3_eq m hout3 c t) cover3

end Cert.KernelIdeal.Blocks

end
-- ==== Proof.KRun.lean ====
/-
  The idealized kernel's run, read as values.

  The frame run leaves each output array as what the grid's write-backs compose to; every grid point (b, qi)
  writes back the block of the specification's array that sits at rows 256·qi … 256·qi + 255 of batch b (the
  softmax block, and the row-maximum block), and the sixteen blocks cover each array: so the two results are
  the specification's G0 and G1 of the two argument arrays, which the run leaves unchanged.
-/
import proofs.«160099_j1580547972197_2_alg».proof.Proof.KernelIdealFrame
import proofs.«160099_j1580547972197_2_alg».proof.Proof.KPieces
import proofs.«160099_j1580547972197_2_alg».proof.Proof.KBlocks
import Idealize.ShloMosaic.Lib.Pipeline.Value

noncomputable section

namespace Cert.KernelIdeal.KRun

open Cert.KernelIdeal Cert.KernelIdeal.Gen Cert.L1Attn Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the frame run, the first output's array is what the library computes from the proof data. -/
theorem post2 (r : PUnit × MemSt nD τ sig (Elt Ideal)) (h : Pipeline.FramePost cfgs (GenP.dats m) 0 (V m) r) (c : Dev nD) :
    r.2.mem ((c : Thread nD τ).loc main_v1_0) = (GenP.dats m 0 c).arrAt 2 cfg0.N :=
  (h c).1 2

/-- … and the second output's. -/
theorem post3 (r : PUnit × MemSt nD τ sig (Elt Ideal)) (h : Pipeline.FramePost cfgs (GenP.dats m) 0 (V m) r) (c : Dev nD) :
    r.2.mem ((c : Thread nD τ).loc main_v1_1) = (GenP.dats m 0 c).arrAt 3 cfg0.N :=
  (h c).1 3

/-- The query array is staged and never written back: it ends as launched. -/
theorem kept_main_arg0 (r : PUnit × MemSt nD τ sig (Elt Ideal)) (h : Pipeline.FramePost cfgs (GenP.dats m) 0 (V m) r) (c : Dev nD) :
    r.2.mem ((c : Thread nD τ).loc main_arg0) = m ((c : Thread nD τ).loc main_arg0) :=
  ((h c).1 0).trans (((GenP.dats m 0 c).arrAt_in 0 rfl _).trans ((GenP.A_eq m c 0).trans (V_main_arg0 m c)))

/-- The key array is not staged at all (its transpose is): the run leaves it as it was. -/
theorem kept_main_arg1 (r : PUnit × MemSt nD τ sig (Elt Ideal)) (h : Pipeline.FramePost cfgs (GenP.dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- THE KERNEL'S RUN over the extended reals: it terminates with the softmax array and the row maxima of the
    specification, as functions of the two argument arrays, and the arguments unchanged. -/
theorem run : θ_run defs (onTc (τ := τ) (main (F := Ideal))) ⟨m, fun _ => 0, ρ⟩ fun r => ∀ c : Dev nD,
      r.2.mem ((c : Thread nD τ).loc main_v1_0) = G0 (m ((c : Thread nD τ).loc main_arg0)) (m ((c : Thread nD τ).loc main_arg1))
      ∧ r.2.mem ((c : Thread nD τ).loc main_v1_1) = G1 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (Cert.KernelIdeal.Blocks.final2 m Cert.KernelIdeal.Pieces.out2_eq c),
      (post3 m r h c).trans (Cert.KernelIdeal.Blocks.final3 m Cert.KernelIdeal.Pieces.out3_eq c),
      kept_main_arg0 m r h c,
      kept_main_arg1 m r h c⟩)
    (GenP.run_main m ρ)

end Cert.KernelIdeal.KRun

end
-- ==== Proof.lean ====
/-
  Pairwise L1-distance attention: a Pallas kernel against its jnp reference, over the extended reals.

  For q, y : [4, 1024, 64] the SCORE of query row (b, i) against key row (b, j) is minus the mean over the 64
  features of |q[b,i,d] − y[b,j,d]|. Both programs return the softmax of the scores over j, in the shifted form
  exp(s − max) / Σ_j exp(s − max), and the row maxima laid out [4, 1, 1024].

  The kernel works on a grid of 4 × 4 points (batch, query tile of 256 rows): it transposes y on the host, builds the
  point's [256, 1024] scores in a buffer by a loop of eight [256, 128] tiles, each (0 − Σ_d |·|) · (1/64), then takes
  the row maxima, the shifted exponentials, their row sums and the quotient. The reference builds all [4, 1024, 1024, 64]
  differences, sums and divides by 64, transposes, negates, and applies the same shifted softmax.
  The two agree at every index because (0 − S) · (1/64) = −(S / 64) on the extended reals (1/64 is exact in f32),
  a maximum against −∞ is the identity, and a sum from 0 is the sum; no finiteness of the inputs is needed.
  The idealization rewrote nothing, so `preserves` is trivial.
-/
import proofs.«160099_j1580547972197_2_alg».proof.Defs
import proofs.«160099_j1580547972197_2_alg».proof.Proof.Gen.Kernel
import proofs.«160099_j1580547972197_2_alg».proof.Proof.Gen.KernelIdeal
import proofs.«160099_j1580547972197_2_alg».proof.Proof.Gen.ReferenceIdeal
import proofs.«160099_j1580547972197_2_alg».proof.Proof.Gen.Pre_finite_inputs
import proofs.«160099_j1580547972197_2_alg».proof.Proof.Gen.ReferenceIdeal.Run
import proofs.«160099_j1580547972197_2_alg».proof.Proof.Gen.ReferenceIdeal.Read
import proofs.«160099_j1580547972197_2_alg».proof.Proof.KernelFrame
import proofs.«160099_j1580547972197_2_alg».proof.Proof.KernelIdealFrame
import proofs.«160099_j1580547972197_2_alg».proof.Proof.RefValue
import proofs.«160099_j1580547972197_2_alg».proof.Proof.KRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.GenP.frame m ρ

theorem frame_pi : Cert.frame_KernelIdeal := fun m ρ _ => Cert.KernelIdeal.GenP.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: the idealized kernel is the kernel's own text read over the extended reals. -/
theorem preserves : Cert.preserves_Kernel_KernelIdeal := trivial

/-- Both programs end at the specification's two arrays of arguments that agree. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v23_eq, Cert.L1Attn.Ref.ref_att, (hagree c).1, (hagree c).2]
  · rw [(h c).2.1, Cert.ReferenceIdeal.Read.val_main_v12_eq, Cert.L1Attn.Ref.ref_max, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
